-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_

variable [Facts]

def fn_part1 {F : FTy → Type} [FloatOps F] (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S3x64x64 .f32) (main_arg4 : FVec F S3x64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S64x64 : Shape := ⟨2, ![64, 64]⟩
abbrev S1x64x64 : Shape := ⟨3, ![1, 64, 64]⟩
abbrev S50000x256 : Shape := ⟨2, ![50000, 256]⟩
abbrev S256x64 : Shape := ⟨2, ![256, 64]⟩
abbrev S10000x256 : Shape := ⟨2, ![10000, 256]⟩
abbrev S10000x64 : Shape := ⟨2, ![10000, 64]⟩

abbrev nBuf : Space → Nat
  | .hbm => 127
  | .vmem => 5
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S3x64x64, .f32⟩
  | .hbm, ⟨4, _⟩ => ⟨S3x64x64, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S50000, .i1⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .f32⟩
  | .hbm, ⟨58, _⟩ => ⟨S800000x64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S800000x1, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x64, .f32⟩
  | .hbm, ⟨74, _⟩ => ⟨S800000x64, .f32⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S800000x1, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S800000x64, .f32⟩
  | .hbm, ⟨91, _⟩ => ⟨S800000x64, .f32⟩
  | .hbm, ⟨92, _⟩ => ⟨S_, .f32⟩
  | .hbm, ⟨93, _⟩ => ⟨S50000x64, .f32⟩
  | .hbm, ⟨94, _⟩ => ⟨S800000x1, .i32⟩
  | .hbm, ⟨95, _⟩ => ⟨S50000x64, .f32⟩
  | .hbm, ⟨96, _⟩ => ⟨S_, .f32⟩
  | .hbm, ⟨97, _⟩ => ⟨S64x64, .f32⟩
  | .hbm, ⟨98, _⟩ => ⟨S_, .f32⟩
  | .hbm, ⟨99, _⟩ => ⟨S64x64, .f32⟩
  | .hbm, ⟨100, _⟩ => ⟨S_, .f32⟩
  | .hbm, ⟨101, _⟩ => ⟨S64x64, .f32⟩
  | .hbm, ⟨102, _⟩ => ⟨S_, .f32⟩
  | .hbm, ⟨103, _⟩ => ⟨S64x64, .f32⟩
  | .hbm, ⟨104, _⟩ => ⟨S1x64x64, .f32⟩
  | .hbm, ⟨105, _⟩ => ⟨S64x64, .f32⟩
  | .hbm, ⟨106, _⟩ => ⟨S64x64, .f32⟩
  | .hbm, ⟨107, _⟩ => ⟨S1x64x64, .f32⟩
  | .hbm, ⟨108, _⟩ => ⟨S64x64, .f32⟩
  | .hbm, ⟨109, _⟩ => ⟨S64x64, .f32⟩
  | .hbm, ⟨110, _⟩ => ⟨S1x64x64, .f32⟩
  | .hbm, ⟨111, _⟩ => ⟨S64x64, .f32⟩
  | .hbm, ⟨112, _⟩ => ⟨S64x64, .f32⟩
  | .hbm, ⟨113, _⟩ => ⟨S1x64x64, .f32⟩
  | .hbm, ⟨114, _⟩ => ⟨S64x64, .f32⟩
  | .hbm, ⟨115, _⟩ => ⟨S64x64, .f32⟩
  | .hbm, ⟨116, _⟩ => ⟨S1x64x64, .f32⟩
  | .hbm, ⟨117, _⟩ => ⟨S64x64, .f32⟩
  | .hbm, ⟨118, _⟩ => ⟨S64x64, .f32⟩
  | .hbm, ⟨119, _⟩ => ⟨S1x64x64, .f32⟩
  | .hbm, ⟨120, _⟩ => ⟨S64x64, .f32⟩
  | .hbm, ⟨121, _⟩ => ⟨S64x64, .f32⟩
  | .hbm, ⟨122, _⟩ => ⟨S50000x256, .f32⟩
  | .hbm, ⟨123, _⟩ => ⟨S50000x256, .bf16⟩
  | .hbm, ⟨124, _⟩ => ⟨S256x64, .f32⟩
  | .hbm, ⟨125, _⟩ => ⟨S256x64, .bf16⟩
  | .hbm, ⟨126, _⟩ => ⟨S50000x64, .f32⟩
  | .local _ .vmem, ⟨0, _⟩ => ⟨S10000x256, .bf16⟩
  | .local _ .vmem, ⟨1, _⟩ => ⟨S10000x256, .bf16⟩
  | .local _ .vmem, ⟨2, _⟩ => ⟨S256x64, .bf16⟩
  | .local _ .vmem, ⟨3, _⟩ => ⟨S10000x64, .f32⟩
  | .local _ .vmem, ⟨4, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_13 : Ref sig .tc := ⟨.hbm, 81, rfl⟩
abbrev main_v57 : Ref sig .tc := ⟨.hbm, 82, rfl⟩
abbrev main_v58 : Ref sig .tc := ⟨.hbm, 83, rfl⟩
abbrev main_c_14 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_cst_18 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S50000x64_S50000x64_S50000x64_S50000x64_S50000x256_d1 : Shape.Concatenates [S50000x64, S50000x64, S50000x64, S50000x64] S50000x256 1
  bitsLt_bf16_f32 : FTy.bits .bf16 < FTy.bits .f32
  concatenates_S64x64_S64x64_S64x64_S64x64_S256x64_d0 : Shape.Concatenates [S64x64, S64x64, S64x64, S64x64] S256x64 0
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S10000x64_S10000x64_0_0 : ∀ a, (![0, 0] : Fin 2 → Nat) a + S10000x64.size a ≤ S10000x64.size a
  h_S10000x64 : 0 < S10000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .bf16 = 32 ∨ (Rect.block (s := S50000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_v92) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v95) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64x64 : Shape := ⟨3, ![1, 64, 64]⟩
abbrev S64x64 : Shape := ⟨2, ![64, 64]⟩

abbrev nBuf : Space → Nat
  | .hbm => 197
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S3x64x64, .f32⟩
  | 4 => ⟨S3x64x64, .f32⟩
  | 5 => ⟨S1x800000, .i32⟩
  | 6 => ⟨S800000, .i32⟩
  | 7 => ⟨S1x800000, .i32⟩
  | 8 => ⟨S800000, .i32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S50000, .i1⟩
  | 16 => ⟨S_, .f32⟩
  | 17 => ⟨S50000, .f32⟩
  | 18 => ⟨S50000, .i1⟩
  | 19 => ⟨S_, .f32⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S800000x1, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S1x64x64, .f32⟩
  | 65 => ⟨S64x64, .f32⟩
  | 66 => ⟨S50000x64, .f32⟩
  | 67 => ⟨S1x64x64, .f32⟩
  | 68 => ⟨S64x64, .f32⟩
  | 69 => ⟨S50000x64, .f32⟩
  | 70 => ⟨S50000x64, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .i1⟩
  | 81 => ⟨S_, .f32⟩
  | 82 => ⟨S_, .f32⟩
  | 83 => ⟨S50000, .f32⟩
  | 84 => ⟨S50000, .f32⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S800000, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S800000, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S1x64x64, .f32⟩
  | 127 => ⟨S64x64, .f32⟩
  | _ => ⟨S50000x64, .f32⟩

abbrev hbmTy0_1 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S50000x64, .f32⟩
  | 6 => ⟨S_, .f32⟩
  | 7 => ⟨S50000, .f32⟩
  | 8 => ⟨S800000x1, .i32⟩
  | 9 => ⟨S50000, .f32⟩
  | 10 => ⟨S_, .f32⟩
  | 11 => ⟨S50000, .f32⟩
  | 12 => ⟨S50000, .i1⟩
  | 13 => ⟨S_, .f32⟩
  | 14 => ⟨S50000, .f32⟩
  | 15 => ⟨S50000, .i1⟩
  | 16 => ⟨S_, .f32⟩
  | 17 => ⟨S_, .f32⟩
  | 18 => ⟨S50000, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S1x64x64, .f32⟩
  | 62 => ⟨S64x64, .f32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_cst_13 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_call3_v0 : Ref sig .tc := ⟨.hbm, 87, rfl⟩
abbrev main_call3_v1 : Ref sig .tc := ⟨.hbm, 88, rfl⟩
abbrev main_v59 : Ref sig .tc := ⟨.hbm, 89, rfl⟩
abbrev main_c_15 : Ref sig .tc := ⟨.hbm, 90, rfl⟩
abbrev main_v60 : Ref sig .tc := ⟨.hbm, 91, rfl⟩
abbrev main_v61 : Ref sig .tc := ⟨.hbm, 92, rfl⟩
abbrev main_c_16 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_17 : Ref sig .tc := ⟨.hbm, 100, rfl⟩
abbrev main_v68 : Ref sig .tc := ⟨.hbm, 101, rfl⟩
abbrev main_v69 : Ref sig .tc := ⟨.hbm, 102, rfl⟩
abbrev main_c_18 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_19 : Ref sig .tc := ⟨.hbm, 111, rfl⟩
abbrev main_v77 : Ref sig .tc := ⟨.hbm, 112, rfl⟩
abbrev main_v78 : Ref sig .tc := ⟨.hbm, 113, rfl⟩
abbrev main_c_20 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_21 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_23 : Ref sig .tc := ⟨.hbm, 138, rfl⟩
abbrev main_v100 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_cst_25 : Ref sig .tc := ⟨.hbm, 144, rfl⟩
abbrev main_call4_v0 : Ref sig .tc := ⟨.hbm, 145, rfl⟩
abbrev main_call4_v1 : Ref sig .tc := ⟨.hbm, 146, rfl⟩
abbrev main_v104 : Ref sig .tc := ⟨.hbm, 147, rfl⟩
abbrev main_v105 : Ref sig .tc := ⟨.hbm, 148, rfl⟩
abbrev main_cst_26 : Ref sig .tc := ⟨.hbm, 149, rfl⟩
abbrev main_call5_v0 : Ref sig .tc := ⟨.hbm, 150, rfl⟩
abbrev main_call5_v1 : Ref sig .tc := ⟨.hbm, 151, rfl⟩
abbrev main_v106 : Ref sig .tc := ⟨.hbm, 152, rfl⟩
abbrev main_c_27 : Ref sig .tc := ⟨.hbm, 153, rfl⟩
abbrev main_v107 : Ref sig .tc := ⟨.hbm, 154, rfl⟩
abbrev main_v108 : Ref sig .tc := ⟨.hbm, 155, rfl⟩
abbrev main_c_28 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_29 : Ref sig .tc := ⟨.hbm, 163, rfl⟩
abbrev main_v115 : Ref sig .tc := ⟨.hbm, 164, rfl⟩
abbrev main_v116 : Ref sig .tc := ⟨.hbm, 165, rfl⟩
abbrev main_c_30 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_31 : Ref sig .tc := ⟨.hbm, 174, rfl⟩
abbrev main_v124 : Ref sig .tc := ⟨.hbm, 175, rfl⟩
abbrev main_v125 : Ref sig .tc := ⟨.hbm, 176, rfl⟩
abbrev main_c_32 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_33 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KData.lean ====
/-
  The data of the frame proof of the one pallas_call of `Kernel`: the buffers as the region finds them (the launch
  memory after the host operations before the call), a window's block at a grid point, what the body leaves in the
  output window's staging buffer (the matrix product of the two input blocks into the zero accumulator, stored
  whole), and the pipeline's proof data built from them.
-/
import proofs.«123144_j32865089749452_1_alg».proof.Proof.Gen.Kernel.Launch
import proofs.«123144_j32865089749452_1_alg».proof.Proof.Gen.Kernel.Skeleton
import proofs.«123144_j32865089749452_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- Core `c`'s buffers when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev r0_0 : Rect S10000x256 := Rect.unit (s := S10000x256) ![0, 0] S10000x256.size inb_S10000x256_S10000x256_0_0
abbrev r0_1 : Rect S256x64 := Rect.unit (s := S256x64) ![0, 0] S256x64.size inb_S256x64_S256x64_0_0
abbrev r0_2 : Rect S10000x64 := Rect.unit (s := S10000x64) ![0, 0] S10000x64.size inb_S10000x64_S10000x64_0_0

/-- The output window's staging buffer after the body: its one store, of the product of the two loaded blocks. -/
def out0_2 (x0 : Vec F S10000x256 .bf16) (x1 : Vec F S256x64 .bf16) : Vec F S10000x64 .f32 :=
  View.canon [⟨r0_2, k0_pay1 (View.ld x0 r0_0) (View.ld x1 r0_1)⟩]

/-- The proof data of the pipeline on core `c`: the arrays as the region finds them; after the body at point `t` each
    input's buffer at its block and the output's at the product of the two input blocks; the untouched scoped rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.KFrame.lean ====
/-
  The frame of `Kernel`: @main up to its one region (five stretches of host operations, none of which writes an
  argument array), each window's block at a grid point, the body's triple (two loads of the inputs, an unused load of
  the output, one store covering the output), the pipeline's body obligation from it, the run of @main to the
  pipeline's frame post, and from that the frame claim: @main terminates and leaves its five argument arrays as
  launched, at any float type.
-/
import proofs.«123144_j32865089749452_1_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's one store covers its buffer -/

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The kernel body on whole staging memrefs, the inputs' at read contents and the output's at anything, runs to the
    continuation holding the inputs' as they were and the output's at the product of the two inputs: the two loads read
    the inputs, the load of the output reads whatever it held and is not used, the one store covers the output. -/
theorem sound_kernel (c : Dev nD) (E : Set ℕ) (i : grid0.Coords) (arg1 : Memref sig .tc .vmem S10000x256 .bf16) (harg1 : arg1.IsWhole) (arg2 : Memref sig .tc .vmem S256x64 .bf16) (harg2 : arg2.IsWhole) (arg3 : Memref sig .tc .vmem S10000x64 .f32) (harg3 : arg3.IsWhole)
    (x0 : Vec F S10000x256 .bf16) (x1 : Vec F S256x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_matmul_kernel i arg1 harg1 arg2 harg2 arg3 harg3) K := by
  simp only [cc0__combine_matmul_kernel_eq_skeleton]; unfold cc0__combine_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame claim at any float type: @main runs to the end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KIData.lean ====
/-
  The data of the frame proof of the one pallas_call of `KernelIdeal`: the buffers as the region finds them (the launch
  memory after the host operations before the call), a window's block at a grid point, what the body leaves in the
  output window's staging buffer (the matrix product of the two input blocks into the zero accumulator, stored
  whole), and the pipeline's proof data built from them.
-/
import proofs.«123144_j32865089749452_1_alg».proof.Proof.Gen.KernelIdeal.Launch
import proofs.«123144_j32865089749452_1_alg».proof.Proof.Gen.KernelIdeal.Skeleton
import proofs.«123144_j32865089749452_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- Core `c`'s buffers when the region is entered: the launch memory after the five stretches of host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-buffer rectangles the body loads and stores through. -/
abbrev r0_0 : Rect S10000x256 := Rect.unit (s := S10000x256) ![0, 0] S10000x256.size inb_S10000x256_S10000x256_0_0
abbrev r0_1 : Rect S256x64 := Rect.unit (s := S256x64) ![0, 0] S256x64.size inb_S256x64_S256x64_0_0
abbrev r0_2 : Rect S10000x64 := Rect.unit (s := S10000x64) ![0, 0] S10000x64.size inb_S10000x64_S10000x64_0_0

/-- The output window's staging buffer after the body: its one store, of the product of the two loaded blocks. -/
def out0_2 (x0 : Vec F S10000x256 .bf16) (x1 : Vec F S256x64 .bf16) : Vec F S10000x64 .f32 :=
  View.canon [⟨r0_2, k0_pay1 (View.ld x0 r0_0) (View.ld x1 r0_1)⟩]

/-- The proof data of the pipeline on core `c`: the arrays as the region finds them; after the body at point `t` each
    input's buffer at its block and the output's at the product of the two input blocks; the untouched scoped rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.KIFrame.lean ====
/-
  The frame of `KernelIdeal`: @main up to its one region (five stretches of host operations, none of which writes an
  argument array), each window's block at a grid point, the body's triple (two loads of the inputs, an unused load of
  the output, one store covering the output), the pipeline's body obligation from it, the run of @main to the
  pipeline's frame post, and from that the frame claim: @main terminates and leaves its five argument arrays as
  launched, at any float type.
-/
import proofs.«123144_j32865089749452_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
set_option maxHeartbeats 4000000 in
theorem hostOps0_4_fresh : (hostOps0_4 : List (HloOp τ sig (Elt F))).Forall fun op => op.fresh = ∅ := by
  simp only [List.Forall]; repeat' constructor

/-- @main up to the region: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the pipeline's frame post, read at the
    argument arrays, is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's one store covers its buffer -/

theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

/-! ## The body's triple -/

set_option maxHeartbeats 1000000 in
/-- The kernel body on whole staging memrefs, the inputs' at read contents and the output's at anything, runs to the
    continuation holding the inputs' as they were and the output's at the product of the two inputs: the two loads read
    the inputs, the load of the output reads whatever it held and is not used, the one store covers the output. -/
theorem sound_kernel (c : Dev nD) (E : Set ℕ) (i : grid0.Coords) (arg1 : Memref sig .tc .vmem S10000x256 .bf16) (harg1 : arg1.IsWhole) (arg2 : Memref sig .tc .vmem S256x64 .bf16) (harg2 : arg2.IsWhole) (arg3 : Memref sig .tc .vmem S10000x64 .f32) (harg3 : arg3.IsWhole)
    (x0 : Vec F S10000x256 .bf16) (x1 : Vec F S256x64 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__combine_matmul_kernel i arg1 harg1 arg2 harg2 arg3 harg3) K := by
  simp only [cc0__combine_matmul_kernel_eq_skeleton]; unfold cc0__combine_matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and
    the core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the proof data give and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame claim at any float type: @main runs to the end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KIValue.lean ====
/-
  The value of the one matrix-product region of `KernelIdeal`, from blocks to the whole array, over the extended reals.

  The body leaves in the result's block, at entry `(a, b)`, the sum over `k` of `x0 (a, k) * x1 (k, b)` of the two
  loaded blocks (`out0_2_apply`). At grid point `t` the first operand's block is rows `10000 t … 10000 t + 9999` of its
  `50000 × 256` array, the second operand's block is its whole `256 × 64` array, and the result's block is rows
  `10000 t … 10000 t + 9999` of the `50000 × 64` result (`idx_facts`, `iblk0_apply`, `iblk1_apply`). So what point `t`
  writes back is block `t` of the product `matProd X W` of the two arrays as the region finds them (`flushed_eq`); the
  five blocks cover the result, row `r` lying in block `r / 10000` (`cover`); hence the result array after the run is
  `matProd X W` (`final_eq`), entry by entry the sum over `k` of `X (a, k) * W (k, b)` (`final`).
-/
import proofs.«123144_j32865089749452_1_alg».proof.Proof.KIData
import proofs.«123144_j32865089749452_1_alg».proof.Proof.LibMatmulIx
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx

variable (m : (ℓ : Loc nD τ sig) → Buf (Elt Ideal) ℓ)

/-- The zero offsets of a whole-buffer rectangle, as the constant function. -/
theorem zero_offsets : (![0, 0] : Fin 2 → Nat) = fun _ => 0 := funext fun a => by fin_cases a <;> rfl

/-- The body's payload at an entry: the product of the two loaded blocks into the zero accumulator is, at `(a, b)`,
    the sum over the contracted coordinate of the products of the entries. -/
theorem pay_apply (x0 : Vec Ideal S10000x256 .bf16) (x1 : Vec Ideal S256x64 .bf16) (a : Fin 10000) (b : Fin 64) :
    k0_pay1 (F := Ideal) x0 x1 (ix2 a b) = ∑ k : Fin 256, x0 (ix2 a k) * x1 (ix2 k b) := by
  unfold k0_pay1
  simp only [shapeCast_self]
  exact Cert.LibMatmulIx.matmul_zero_apply dot_S10000x256_S256x64_S10000x64_1_0_0_1_n_n_wf none x0 x1 a b

/-- The output block's entry `(a, b)` after the body: the sum over `k` of `x0 (a, k) * x1 (k, b)`. -/
theorem out0_2_apply (x0 : Vec Ideal S10000x256 .bf16) (x1 : Vec Ideal S256x64 .bf16) (a : Fin 10000) (b : Fin 64) :
    out0_2 (F := Ideal) x0 x1 (ix2 a b) = ∑ k : Fin 256, x0 (ix2 a k) * x1 (ix2 k b) := by
  unfold out0_2
  rw [View.canon_unit_zero zero_offsets]
  simp only [View.ld_unit_zero (S := S10000x256) zero_offsets, View.ld_unit_zero (S := S256x64) zero_offsets]
  exact pay_apply x0 x1 a b

/-- The product of a `50000 × 256` array by a `256 × 64` array, index by index: entry `(r, b)` is the sum over the
    contracted coordinate `k` of `X (r, k) * W (k, b)`. -/
def matProd (X : S50000x256.Idx → EReal) (W : S256x64.Idx → EReal) : S50000x64.Idx → EReal :=
  fun i => ∑ k : Fin 256, X (ix2 (⟨(i 0).val, (i 0).isLt⟩ : Fin 50000) k) * W (ix2 k (⟨(i 1).val, (i 1).isLt⟩ : Fin 64))

theorem matProd_apply (X : S50000x256.Idx → EReal) (W : S256x64.Idx → EReal) (a : Fin 50000) (b : Fin 64) :
    matProd X W (ix2 a b) = ∑ k : Fin 256, X (ix2 a k) * W (ix2 k b) := rfl

/-- The printed index maps, decided over the grid: at point `t` the first operand's and the result's block index is
    `(t, 0)`, the second operand's `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first operand's block at point `t` is rows `10000 t … 10000 t + 9999` of its array. -/
theorem iblk0_apply (c : Dev nD) (t : Fin cfg0.N) (a : Fin 10000) (k : Fin 256) (r : Fin 50000)
    (hr : r.val = t.val * 10000 + a.val) :
    (iblk m c 0 t : Vec Ideal S10000x256 .bf16) (ix2 a k) = (V m c main_v92 : S50000x256.Idx → EReal) (ix2 r k) := by
  obtain ⟨e0, e1, -⟩ := idx_facts t
  unfold iblk
  rw [View.read_apply]
  show V m c main_v92 _ = V m c main_v92 _
  congr 1
  funext ax
  apply Fin.ext
  match ax with
  | ⟨0, _⟩ => show win0_0.index t (0 : Fin 2) * 10000 + 1 * a.val = r.val; rw [e0, hr]; omega
  | ⟨1, _⟩ => show win0_0.index t (1 : Fin 2) * 256 + 1 * k.val = k.val; rw [e1]; omega

/-- The second operand's block at every point is its whole array. -/
theorem iblk1_apply (c : Dev nD) (t : Fin cfg0.N) (k : Fin 256) (b : Fin 64) :
    (iblk m c 1 t : Vec Ideal S256x64 .bf16) (ix2 k b) = (V m c main_v94 : S256x64.Idx → EReal) (ix2 k b) := by
  obtain ⟨-, -, e0, e1, -⟩ := idx_facts t
  unfold iblk
  rw [View.read_apply]
  show V m c main_v94 _ = V m c main_v94 _
  congr 1
  funext ax
  apply Fin.ext
  match ax with
  | ⟨0, _⟩ => show win0_1.index t (0 : Fin 2) * 256 + 1 * k.val = k.val; rw [e0]; omega
  | ⟨1, _⟩ => show win0_1.index t (1 : Fin 2) * 64 + 1 * b.val = b.val; rw [e1]; omega

/-- An entry of what the body leaves at point `t`, where the result's block sits in the array: the product's entry there. -/
theorem flushed_entry (c : Dev nD) (t : Fin cfg0.N) (a : Fin 10000) (b : Fin 64) :
    out0_2 (iblk m c 0 t) (iblk m c 1 t) (ix2 a b)
      = matProd (V m c main_v92) (V m c main_v94) (((cfg0.win 2).blk t).view.emb (ix2 a b)) := by
  obtain ⟨-, -, -, -, e0, e1⟩ := idx_facts t
  have ht : t.val < 5 := Nat.lt_of_lt_of_eq t.isLt N_0
  have hlt : t.val * 10000 + a.val < 50000 := by omega
  have hemb : ((cfg0.win 2).blk t).view.emb (ix2 a b)
      = (ix2 (⟨t.val * 10000 + a.val, hlt⟩ : Fin 50000) b : S50000x64.Idx) := by
    funext ax
    apply Fin.ext
    match ax with
    | ⟨0, _⟩ => show win0_2.index t (0 : Fin 2) * 10000 + 1 * a.val = t.val * 10000 + a.val; rw [e0]; omega
    | ⟨1, _⟩ => show win0_2.index t (1 : Fin 2) * 64 + 1 * b.val = b.val; rw [e1]; omega
  rw [hemb, matProd_apply]
  refine (out0_2_apply _ _ a b).trans ?_
  refine Finset.sum_congr rfl fun k _ => ?_
  rw [iblk0_apply m c t a k ⟨t.val * 10000 + a.val, hlt⟩ rfl, iblk1_apply m c t k b]

/-- What point `t` writes back is block `t` of the product of the two arrays as the region finds them. -/
theorem flushed_eq (c : Dev nD) (t : Fin cfg0.N) :
    (dats m 0 c).flushed 2 t
      = ((cfg0.win 2).blk t).view.read (Elt Ideal) (matProd (V m c main_v92) (V m c main_v94)) := by
  show (cfg0.win 2).cut (grid0.coords t) ((dats m 0 c).after 2 t) = _
  rw [after0_2]
  funext j
  have hj : j = ix2 (n0 := 10000) (n1 := 64) (j 0) (j 1) := eq_ix2 (n0 := 10000) (n1 := 64) j
  rw [hj]
  exact flushed_entry m c t (j 0) (j 1)

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v95).slice (win0_2.rect t)).set ↔ _
  rw [View.set_slice_whole, Rect.mem_set_unit]
  exact Iff.rfl

/-- Every index of the array is in some point's block: row `r` is in the block of point `r / 10000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  obtain ⟨t, htv⟩ : ∃ t : Fin cfg0.N, t.val = (i 0).val / 10000 := ⟨⟨(i 0).val / 10000, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [e0, htv]; omega
  | ⟨1, _⟩ =>
    show win0_2.index t (1 : Fin 2) * 64 ≤ (i 1).val ∧ (i 1).val < win0_2.index t (1 : Fin 2) * 64 + 64
    rw [e1]; omega

/-- The result array after the run is the product of the two operand arrays as the region finds them. -/
theorem final_eq (c : Dev nD) :
    (dats m 0 c).arrAt 2 cfg0.N = matProd (V m c main_v92) (V m c main_v94) :=
  (dats m 0 c).arrAt_eq_of_cover 2 (matProd (V m c main_v92) (V m c main_v94)) (fun t _ => flushed_eq m c t) cover

/-- Entry `(a, b)` of the result array after the run, with the operand arrays named `X` and `W`: the sum over the
    contracted coordinate `k` of `X (a, k) * W (k, b)`. -/
theorem final (c : Dev nD) (X : S50000x256.Idx → EReal) (W : S256x64.Idx → EReal)
    (hX : V m c main_v92 = X) (hW : V m c main_v94 = W) (a : Fin 50000) (b : Fin 64) :
    ((dats m 0 c).arrAt 2 cfg0.N : S50000x64.Idx → EReal) (ix2 a b)
      = (∑ k : Fin 256, X (ix2 a k) * W (ix2 k b) : EReal) := by
  rw [final_eq m c, hX, hW, matProd_apply]

end Cert.KernelIdeal.HandValue

end
-- ==== Proof.Spec.lean ====
/-
  The diffusion convolution written once, as pure functions of the argument arrays, in the operations both programs
  apply on the host: the row and column index vectors of the edge list, the negative-index wrap, the weighted degree
  `deg[p] = Σ_{e : row e = p} w e`, its guarded inverse square root, the edge normalisation
  `norm e = dinv[row e] · w e · dinv[col e]`, one propagation step `prop feat [p, q] = Σ_{e : row e = p} norm e · feat[col e, q]`,
  the three slabs of a stacked coefficient array, and the reference's running sum of six matrix products.
-/
import proofs.«123144_j32865089749452_1_alg».proof.Proof.Gen.ReferenceIdeal

noncomputable section

namespace Cert.Diffusion

open Idealize.ShloMosaic Cert.ReferenceIdeal Cert.ReferenceIdeal.Gen

variable {F : FTy → Type} [FloatOps F]

/-- The edge list's first row: the target node of each edge. -/
def rowIx (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

/-- The edge list's second row: the source node of each edge. -/
def colIx (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

/-- A negative index counts from the end: `v < 0 ? v + 50000 : v`. -/
def wrapIx (v : (⟨S800000, .i32⟩ : BufTy).Contents (Elt F)) : (⟨S800000, .i32⟩ : BufTy).Contents (Elt F) :=
  select (cmpi .slt v (broadcastInDim S800000 ![] bcast_S_S800000 (constantI S_ 32 0#32))) (addi v (broadcastInDim S800000 ![] bcast_S_S800000 (constantI S_ 32 50000#32))) v

/-- The weighted degree of each node: the edge weights added up by target node. -/
def deg (ei : (⟨S2x800000, .i32⟩ : BufTy).Contents (Elt F)) (ew : (⟨S800000, .f32⟩ : BufTy).Contents (Elt F)) :
    (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 (rowIx ei)) ew

/-- `deg > 0 ? rsqrt (deg > 0 ? deg : 1) : 0`. -/
def degInv (ei : (⟨S2x800000, .i32⟩ : BufTy).Contents (Elt F)) (ew : (⟨S800000, .f32⟩ : BufTy).Contents (Elt F)) :
    (⟨S50000, .f32⟩ : BufTy).Contents (Elt F) :=
  select (cmpf .ogt (deg ei ew) (broadcastInDim S50000 ![] bcast_S_S50000 (constant S_ .f32 0x00000000#32))) (Host.rsqrt (select (cmpf .ogt (deg ei ew) (broadcastInDim S50000 ![] bcast_S_S50000 (constant S_ .f32 0x00000000#32))) (deg ei ew) (broadcastInDim S50000 ![] bcast_S_S50000 (id (constant S_ .f32 0x3F800000#32))))) (broadcastInDim S50000 ![] bcast_S_S50000 (id (constant S_ .f32 0x00000000#32)))

/-- The normalised weight of each edge. -/
def norm (ei : (⟨S2x800000, .i32⟩ : BufTy).Contents (Elt F)) (ew : (⟨S800000, .f32⟩ : BufTy).Contents (Elt F)) :
    (⟨S800000, .f32⟩ : BufTy).Contents (Elt F) :=
  mulf (mulf (Host.gather gather_S50000_S800000x1_S800000_n_0_n_n_0_1_1 (degInv ei ew) (broadcastInDim S800000x1 ![0] bcast_S800000_S800000x1_0 (wrapIx (rowIx ei)))) ew) (Host.gather gather_S50000_S800000x1_S800000_n_0_n_n_0_1_1 (degInv ei ew) (broadcastInDim S800000x1 ![0] bcast_S800000_S800000x1_0 (wrapIx (colIx ei))))

/-- One propagation step: gather the source rows, scale by the edge's normalised weight, add up by target node. -/
def prop (ei : (⟨S2x800000, .i32⟩ : BufTy).Contents (Elt F)) (ew : (⟨S800000, .f32⟩ : BufTy).Contents (Elt F))
    (feat : (⟨S50000x64, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 (rowIx ei)) (mulf (broadcastInDim S800000x64 ![0, 1] bcast_S800000x1_S800000x64_0_1 (broadcastInDim S800000x1 ![0] bcast_S800000_S800000x1_0 (norm ei ew))) (Host.gather gather_S50000x64_S800000x1_S800000x64_1_0_n_n_0_1_164 feat (broadcastInDim S800000x1 ![0] bcast_S800000_S800000x1_0 (wrapIx (colIx ei)))))

/-- Slab `k` of a stack of three 64 × 64 coefficient matrices. -/
def slab0 (t : (⟨S3x64x64, .f32⟩ : BufTy).Contents (Elt F)) : (⟨S64x64, .f32⟩ : BufTy).Contents (Elt F) :=
  shapeCast _ (extractStridedSlice S1x64x64 ![0, 0, 0] t slices_S3x64x64_S1x64x64_0_0_0) shapeCasts_S1x64x64_S64x64
def slab1 (t : (⟨S3x64x64, .f32⟩ : BufTy).Contents (Elt F)) : (⟨S64x64, .f32⟩ : BufTy).Contents (Elt F) :=
  shapeCast _ (extractStridedSlice S1x64x64 ![1, 0, 0] t slices_S3x64x64_S1x64x64_1_0_0) shapeCasts_S1x64x64_S64x64
def slab2 (t : (⟨S3x64x64, .f32⟩ : BufTy).Contents (Elt F)) : (⟨S64x64, .f32⟩ : BufTy).Contents (Elt F) :=
  shapeCast _ (extractStridedSlice S1x64x64 ![2, 0, 0] t slices_S3x64x64_S1x64x64_2_0_0) shapeCasts_S1x64x64_S64x64

/-- The reference: `x·tf₀ + T₁·tb₀ + T₂·tf₁ + T₁·tb₁ + T₃·tf₂ + T₂·tb₂` with `T₁ = prop x`, `T₂ = prop T₁`,
    `T₃ = prop T₂`, added in that order. -/
def refOut (x : (⟨S50000x64, .f32⟩ : BufTy).Contents (Elt F)) (ei : (⟨S2x800000, .i32⟩ : BufTy).Contents (Elt F))
    (ew : (⟨S800000, .f32⟩ : BufTy).Contents (Elt F)) (tf tb : (⟨S3x64x64, .f32⟩ : BufTy).Contents (Elt F)) :
    (⟨S50000x64, .f32⟩ : BufTy).Contents (Elt F) :=
  addf (addf (addf (addf (addf (Host.dotGeneral dot_S50000x64_S64x64_S50000x64_1_0_0_1_n_n none x (slab0 tf)) (Host.dotGeneral dot_S50000x64_S64x64_S50000x64_1_0_0_1_n_n none (prop ei ew x) (slab0 tb))) (Host.dotGeneral dot_S50000x64_S64x64_S50000x64_1_0_0_1_n_n none (prop ei ew (prop ei ew x)) (slab1 tf))) (Host.dotGeneral dot_S50000x64_S64x64_S50000x64_1_0_0_1_n_n none (prop ei ew x) (slab1 tb))) (Host.dotGeneral dot_S50000x64_S64x64_S50000x64_1_0_0_1_n_n none (prop ei ew (prop ei ew (prop ei ew x))) (slab2 tf))) (Host.dotGeneral dot_S50000x64_S64x64_S50000x64_1_0_0_1_n_n none (prop ei ew (prop ei ew x)) (slab2 tb))

end Cert.Diffusion

end
-- ==== Proof.KSpec.lean ====
/-
  What the kernel program's host operations hand to the matrix-product region, named: four 50000 × 64 feature
  matrices side by side as one 50000 × 256 matrix, four 64 × 64 coefficient blocks stacked as one 256 × 64 matrix,
  and the two operands of the product — the features `[x | T₁ | T₂ | T₃]` with `T₁ = prop x`, `T₂ = prop T₁`,
  `T₃ = prop T₂` (the specification's propagation step), and the blocks `0 + tf₀`, `(0 + tb₀) + tb₁`,
  `(0 + tf₁) + tb₂`, `0 + tf₂` — each narrowed to the matrix unit's input format.
-/
import proofs.«123144_j32865089749452_1_alg».proof.Proof.Gen.KernelIdeal
import proofs.«123144_j32865089749452_1_alg».proof.Proof.Spec

noncomputable section

namespace Cert.KernelIdeal.HostTerm

open Idealize.ShloMosaic Cert.KernelIdeal Cert.KernelIdeal.Gen

variable {F : FTy → Type} [FloatOps F]

/-- Four 50000 × 64 matrices side by side. -/
def side4 (x0 x1 x2 x3 : (⟨S50000x64, .f32⟩ : BufTy).Contents (Elt F)) : (⟨S50000x256, .f32⟩ : BufTy).Contents (Elt F) :=
  concatenate S50000x256 1 [⟨S50000x64, x0⟩, ⟨S50000x64, x1⟩, ⟨S50000x64, x2⟩, ⟨S50000x64, x3⟩]
    concatenates_S50000x64_S50000x64_S50000x64_S50000x64_S50000x256_d1

/-- Four 64 × 64 matrices stacked. -/
def stack4 (w0 w1 w2 w3 : (⟨S64x64, .f32⟩ : BufTy).Contents (Elt F)) : (⟨S256x64, .f32⟩ : BufTy).Contents (Elt F) :=
  concatenate S256x64 0 [⟨S64x64, w0⟩, ⟨S64x64, w1⟩, ⟨S64x64, w2⟩, ⟨S64x64, w3⟩]
    concatenates_S64x64_S64x64_S64x64_S64x64_S256x64_d0

/-- The features and their three propagations side by side, as the product's left operand. -/
def xflat (x : (⟨S50000x64, .f32⟩ : BufTy).Contents (Elt F)) (ei : (⟨S2x800000, .i32⟩ : BufTy).Contents (Elt F))
    (ew : (⟨S800000, .f32⟩ : BufTy).Contents (Elt F)) : (⟨S50000x256, .bf16⟩ : BufTy).Contents (Elt F) :=
  truncf .bf16 (side4 x (Cert.Diffusion.prop ei ew x) (Cert.Diffusion.prop ei ew (Cert.Diffusion.prop ei ew x))
    (Cert.Diffusion.prop ei ew (Cert.Diffusion.prop ei ew (Cert.Diffusion.prop ei ew x)))) bitsLt_bf16_f32

/-- The 64 × 64 matrix of zeros. -/
def zero64 : (⟨S64x64, .f32⟩ : BufTy).Contents (Elt F) :=
  broadcastInDim S64x64 ![] bcast_S_S64x64 (constant S_ .f32 0x00000000#32)

/-- The four coefficient blocks stacked, as the product's right operand. -/
def wflat (tf tb : (⟨S3x64x64, .f32⟩ : BufTy).Contents (Elt F)) : (⟨S256x64, .bf16⟩ : BufTy).Contents (Elt F) :=
  truncf .bf16 (stack4 (addf zero64 (Cert.Diffusion.slab0 tf))
    (addf (addf zero64 (Cert.Diffusion.slab0 tb)) (Cert.Diffusion.slab1 tb))
    (addf (addf zero64 (Cert.Diffusion.slab1 tf)) (Cert.Diffusion.slab2 tb))
    (addf zero64 (Cert.Diffusion.slab2 tf))) bitsLt_bf16_f32

end Cert.KernelIdeal.HostTerm

end
-- ==== Proof.HostTerm.lean ====
/-
  The region of the kernel program finds in its two input windows' arrays the specification's two operands: the
  host operations before the call compute, from the argument arrays, the features and their three propagations side
  by side, and the four coefficient blocks stacked.
-/
import proofs.«123144_j32865089749452_1_alg».proof.Proof.KIData
import proofs.«123144_j32865089749452_1_alg».proof.Proof.KSpec
import Idealize.ShloMosaic.Lib.StableHlo.Run

noncomputable section

namespace Cert.KernelIdeal.HostTerm

open Idealize.ShloMosaic Idealize.ShloMosaic.TcCoe Idealize.SL.Sem Idealize.ShloMosaic.StableHlo
open Cert.KernelIdeal Cert.KernelIdeal.Gen Cert.KernelIdeal.Hand

variable {F : FTy → Type} [FloatOps F]

/-- The stacking of the four coefficient blocks, each block read at its own buffer. -/
theorem stack_result (hxs hy) (G : Valuation τ sig (Elt F)) :
    (nary (τ := τ) ![main_v75, main_v84, main_v90, main_v87] main_v93
        (fun u => concatenate S256x64 0 [⟨S64x64, u 0⟩, ⟨S64x64, u 1⟩, ⟨S64x64, u 2⟩, ⟨S64x64, u 3⟩]
          concatenates_S64x64_S64x64_S64x64_S64x64_S256x64_d0) hxs hy).result G (no_index (Proc.devRef .tc main_v93))
      = stack4 (G (Proc.devRef .tc main_v75)) (G (Proc.devRef .tc main_v84)) (G (Proc.devRef .tc main_v90))
          (G (Proc.devRef .tc main_v87)) :=
  (nary4_result' _ hxs hy G).trans rfl

/-- The four feature matrices side by side, each read at its own buffer. -/
theorem side_result (hxs hy) (G : Valuation τ sig (Elt F)) :
    (nary (τ := τ) ![main_arg0, main_v42, main_v55, main_v68] main_v91
        (fun u => concatenate S50000x256 1 [⟨S50000x64, u 0⟩, ⟨S50000x64, u 1⟩, ⟨S50000x64, u 2⟩, ⟨S50000x64, u 3⟩]
          concatenates_S50000x64_S50000x64_S50000x64_S50000x64_S50000x256_d1) hxs hy).result G (no_index (Proc.devRef .tc main_v91))
      = side4 (G (Proc.devRef .tc main_arg0)) (G (Proc.devRef .tc main_v42)) (G (Proc.devRef .tc main_v55))
          (G (Proc.devRef .tc main_v68)) :=
  (nary4_result' _ hxs hy G).trans rfl

variable (m : (ℓ : Loc nD τ sig) → Buf (Elt F) ℓ)

set_option maxRecDepth 16384 in
set_option maxHeartbeats 4000000 in
/-- The region finds the stacked coefficient blocks in its second window's array. -/
theorem V94_eq (c : Dev nD) :
    V m c main_v94 = wflat (m ((c.tc : Thread nD τ).loc main_arg3)) (m ((c.tc : Thread nD τ).loc main_arg4)) := by
  dsimp only [V]
  simp only [hostOps0, hostOps0_1, hostOps0_2, hostOps0_3, hostOps0_4, List.flatten_cons, List.flatten_nil,
    List.append_nil, List.cons_append, List.nil_append]
  simp (disch := decide) only [after_cons, after_nil, nullary_result', unary_result', binary_result', ternary_result',
    reshape_result', stack_result, side_result, nullary_result_ne', unary_result_ne', binary_result_ne', ternary_result_ne',
    reshape_result_ne', nary_result_ne']
  rfl

set_option maxRecDepth 16384 in
set_option maxHeartbeats 8000000 in
/-- The region finds the features and their three propagations, side by side, in its first window's array. -/
theorem V92_eq (c : Dev nD) :
    V m c main_v92 = xflat (m ((c.tc : Thread nD τ).loc main_arg0)) (m ((c.tc : Thread nD τ).loc main_arg1))
      (m ((c.tc : Thread nD τ).loc main_arg2)) := by
  dsimp only [V]
  simp only [hostOps0, hostOps0_1, hostOps0_2, hostOps0_3, hostOps0_4, List.flatten_cons, List.flatten_nil,
    List.append_nil, List.cons_append, List.nil_append]
  simp (disch := decide) only [after_cons, after_nil, nullary_result', unary_result', binary_result', ternary_result',
    reshape_result', stack_result, side_result, nullary_result_ne', unary_result_ne', binary_result_ne', ternary_result_ne',
    reshape_result_ne', nary_result_ne']
  unfold xflat Cert.Diffusion.prop Cert.Diffusion.norm Cert.Diffusion.degInv Cert.Diffusion.deg Cert.Diffusion.wrapIx
    Cert.Diffusion.rowIx Cert.Diffusion.colIx
  rfl

end Cert.KernelIdeal.HostTerm

end
-- ==== Proof.Real.lean ====
/-
  A family of extended reals all of whose members are real numbers.
-/
import Mathlib.Data.EReal.Basic

namespace Cert.Diffusion

/-- Every member of the family is (the coercion of) a real number. -/
def IsReal {ι : Type} (v : ι → EReal) : Prop := ∀ i, ∃ r : ℝ, v i = (r : EReal)

theorem IsReal.ne_top {ι : Type} {v : ι → EReal} (h : IsReal v) (i : ι) : v i ≠ ⊤ := by
  obtain ⟨r, hr⟩ := h i; rw [hr]; exact EReal.coe_ne_top r

theorem IsReal.ne_bot {ι : Type} {v : ι → EReal} (h : IsReal v) (i : ι) : v i ≠ ⊥ := by
  obtain ⟨r, hr⟩ := h i; rw [hr]; exact EReal.coe_ne_bot r

theorem isReal_of_ne {ι : Type} {v : ι → EReal} (h : ∀ i, v i ≠ ⊤ ∧ v i ≠ ⊥) : IsReal v := fun i =>
  ⟨(v i).toReal, (EReal.coe_toReal (h i).1 (h i).2).symm⟩

end Cert.Diffusion
-- ==== Proof.PropReal.lean ====
/-
  One propagation step keeps real numbers real, at the ideal values (a float an extended real).

  Every operation of the step either re-indexes its operand (a broadcast, a gather), picks one of two operands per
  element (a select), multiplies two operands element by element, or adds up finitely many update elements onto an
  operand element (the accumulating scatter). Each of these sends families of real numbers to families of real numbers.
  The one operation that does not in general is the reciprocal square root, which is real only at a positive real; the
  guard "degree greater than zero" is exactly that condition, and elsewhere the guarded value is the constant zero.
-/
import proofs.«123144_j32865089749452_1_alg».proof.Proof.Spec
import proofs.«123144_j32865089749452_1_alg».proof.Proof.Real
import Idealize.ShloMosaic.PureOps.Ideal
import Idealize.ShloMosaic.PureOps.Ideal.Laws

noncomputable section

namespace Cert.Diffusion

open Idealize.ShloMosaic Cert.ReferenceIdeal Cert.ReferenceIdeal.Gen

/-! ## Finite sums of real numbers -/

/-- A finite sum of extended reals each of which is a real number is a real number. -/
theorem exists_real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r₁, h₁⟩ := h a (Finset.mem_insert_self a s)
    obtain ⟨r₂, h₂⟩ := ih fun i hi => h i (Finset.mem_insert_of_mem hi)
    exact ⟨r₁ + r₂, by rw [Finset.sum_insert ha, h₁, h₂, EReal.coe_add]⟩

/-! ## The operations, one by one -/

section Ops
variable {s t : Shape} {φ : FTy}

/-- A broadcast re-indexes its operand. -/
theorem isReal_broadcastInDim (dims : Fin s.rank → Fin t.rank) (hb : s.BroadcastsInDim t dims) {x : s.Idx → EReal}
    (hx : IsReal x) : IsReal (broadcastInDim t dims hb x) :=
  fun _ => hx _

/-- A gather's every element is an element of its operand. -/
theorem isReal_gather {si : Shape} {w : Nat} (d : GatherDims s si t) {x : s.Idx → EReal} (hx : IsReal x)
    (idx : IVec si w) : IsReal (Host.gather d x idx) :=
  fun _ => hx _

/-- A select's every element is the element there of one of its two branches. -/
theorem isReal_select (c : IVec s 1) {a b : s.Idx → EReal} (ha : IsReal a) (hb : IsReal b) : IsReal (select c a b) := by
  intro i
  show ∃ r : ℝ, (if c i = 1 then a i else b i) = (r : EReal)
  split
  · exact ha i
  · exact hb i

/-- The product of two real numbers is real. -/
theorem isReal_mulf {x y : FVec Ideal s φ} (hx : IsReal x) (hy : IsReal y) : IsReal (mulf x y) := by
  intro i
  obtain ⟨a, ha⟩ := hx i
  obtain ⟨b, hb⟩ := hy i
  refine ⟨a * b, ?_⟩
  show x i * y i = _
  rw [ha, hb, EReal.coe_mul]

/-- The splat of the zero pattern is the real number zero everywhere. -/
theorem isReal_zeros : IsReal (constant (F := Ideal) s .f32 0x00000000#32) := by
  intro i
  refine ⟨0, ?_⟩
  show Ideal.ofBits .f32 0x00000000#32 = _
  rw [Ideal.ofBits_zero_f32, EReal.coe_zero]

/-- The accumulating scatter adds to each operand element finitely many update elements: real operand and real
    updates give a real result, whatever the dimension numbers and the indices. -/
theorem isReal_scatterAdd {si u : Shape} {w : Nat} (d : ScatterDims s si u) {x : FVec Ideal s φ} (idx : IVec si w)
    {upd : FVec Ideal u φ} (hx : IsReal x) (hu : IsReal upd) : IsReal (Host.scatterAdd d x idx upd) := by
  intro i
  show ∃ r : ℝ, x i + ∑ j ∈ Finset.univ.filter (fun j => d.resultIdx? j idx = some i), upd j = (r : EReal)
  obtain ⟨a, ha⟩ := hx i
  obtain ⟨b, hb⟩ := exists_real_sum (Finset.univ.filter (fun j => d.resultIdx? j idx = some i)) upd fun j _ => hu j
  exact ⟨a + b, by rw [ha, hb, EReal.coe_add]⟩

end Ops

/-! ## The reciprocal square root under its guard -/

/-- The reciprocal square root of a positive real number is a real number. -/
theorem exists_real_rsqrt {r : ℝ} (hr : 0 < r) : ∃ q : ℝ, Ideal.rsqrt (r : EReal) = (q : EReal) := by
  refine ⟨(Real.sqrt r)⁻¹, ?_⟩
  rw [Ideal.rsqrt_coe, if_neg (not_lt.mpr hr.le), if_neg hr.ne']

/-- The comparison "greater than" answers one exactly when its first operand is the greater. -/
theorem lt_of_cmp_ogt {x y : EReal} (h : Ideal.cmp .ogt x y = 1) : y < x := by
  have h' : BitVec.ofBool (decide (y < x)) = 1 := h
  by_contra hn
  rw [decide_eq_false hn] at h'
  exact absurd h' (by decide)

/-- The value "g > z ? rsqrt (g > z ? g : o) : z'" at one element is real when g is real there, z is zero there and
    z' is real there: where the guard holds the inner select gives g, a positive real; elsewhere the value is z'.
    The alternative o of the inner select is never read. -/
theorem exists_real_guarded_rsqrt {s : Shape} (g z o z' : FVec Ideal s .f32) (i : s.Idx)
    (hg : ∃ r : ℝ, g i = (r : EReal)) (hz : z i = 0) (hz' : ∃ r : ℝ, z' i = (r : EReal)) :
    ∃ r : ℝ, select (cmpf .ogt g z) (Host.rsqrt (select (cmpf .ogt g z) g o)) z' i = (r : EReal) := by
  obtain ⟨r, hr⟩ := hg
  show ∃ q : ℝ, (if Ideal.cmp .ogt (g i) (z i) = 1
      then Ideal.rsqrt (if Ideal.cmp .ogt (g i) (z i) = 1 then g i else o i) else z' i) = (q : EReal)
  by_cases hc : Ideal.cmp .ogt (g i) (z i) = 1
  · rw [if_pos hc, if_pos hc, hr]
    have hpos := lt_of_cmp_ogt hc
    rw [hz, hr] at hpos
    exact exists_real_rsqrt (EReal.coe_pos.mp hpos)
  · rw [if_neg hc]
    exact hz'

/-! ## The step -/

section Step
variable (ei : (⟨S2x800000, .i32⟩ : BufTy).Contents (Elt Ideal)) (ew : (⟨S800000, .f32⟩ : BufTy).Contents (Elt Ideal))

/-- The weighted degrees of real weights are real: each is a finite sum of weights. -/
theorem deg_real (hw : IsReal ew) : IsReal (deg (F := Ideal) ei ew) :=
  isReal_scatterAdd _ _ (isReal_broadcastInDim _ _ isReal_zeros) hw

/-- The guarded inverse square roots of the degrees are real. -/
theorem degInv_real (hw : IsReal ew) : IsReal (degInv (F := Ideal) ei ew) := by
  intro i
  refine exists_real_guarded_rsqrt _ _ _ _ i (deg_real ei ew hw i) ?_ (isReal_broadcastInDim _ _ isReal_zeros i)
  show Ideal.ofBits .f32 0x00000000#32 = 0
  exact Ideal.ofBits_zero_f32

/-- The normalised weights are real: each is a product of three real numbers. -/
theorem norm_real (hw : IsReal ew) : IsReal (norm (F := Ideal) ei ew) :=
  isReal_mulf (isReal_mulf (isReal_gather _ (degInv_real ei ew hw) _) hw) (isReal_gather _ (degInv_real ei ew hw) _)

/-- One propagation step of real features along real weights is real: each entry is a finite sum of products of a
    normalised weight and a feature entry. -/
theorem prop_real (feat : (⟨S50000x64, .f32⟩ : BufTy).Contents (Elt Ideal)) (hw : IsReal ew) (hf : IsReal feat) :
    IsReal (prop (F := Ideal) ei ew feat) :=
  isReal_scatterAdd _ _ (isReal_broadcastInDim _ _ isReal_zeros)
    (isReal_mulf (isReal_broadcastInDim _ _ (isReal_broadcastInDim _ _ (norm_real ei ew hw))) (isReal_gather _ hf _))

end Step

end Cert.Diffusion

end
-- ==== Proof.LibConcat4.lean ====
/-
  Four matrices of one shape [R, C] joined into one, read at an index: side by side (along the columns, the result
  [R, T] with T = 4·C) column `j·C + c` of the result is column `c` of piece `j`; stacked (along the rows, the result
  [T, C] with T = 4·R) row `j·R + r` of the result is row `r` of piece `j`. Library-only: for any element type and
  extents.
-/
import Idealize.ShloMosaic.Lib.Pipeline.Value
import Idealize.ShloMosaic.Lib.ValueIdx

namespace Cert.LibConcat4

open Idealize.ShloMosaic Idealize.ShloMosaic.ValueIdx

variable {α : Type}

/-- Four [R, C] matrices side by side: the result at row `r` and column `j·C + c` is piece `j` at `(r, c)`. -/
theorem concat4_cols_apply {R C T : Nat} (x0 x1 x2 x3 : (⟨2, ![R, C]⟩ : Shape).Idx → α)
    (h : Shape.Concatenates [⟨2, ![R, C]⟩, ⟨2, ![R, C]⟩, ⟨2, ![R, C]⟩, ⟨2, ![R, C]⟩] ⟨2, ![R, T]⟩ 1)
    (r : Fin R) (c : Fin C) (k : Fin T) :
    (k.val = 0 * C + c.val → concatenate ⟨2, ![R, T]⟩ 1 [⟨⟨2, ![R, C]⟩, x0⟩, ⟨⟨2, ![R, C]⟩, x1⟩, ⟨⟨2, ![R, C]⟩, x2⟩, ⟨⟨2, ![R, C]⟩, x3⟩] h (ix2 r k) = x0 (ix2 r c))
    ∧ (k.val = 1 * C + c.val → concatenate ⟨2, ![R, T]⟩ 1 [⟨⟨2, ![R, C]⟩, x0⟩, ⟨⟨2, ![R, C]⟩, x1⟩, ⟨⟨2, ![R, C]⟩, x2⟩, ⟨⟨2, ![R, C]⟩, x3⟩] h (ix2 r k) = x1 (ix2 r c))
    ∧ (k.val = 2 * C + c.val → concatenate ⟨2, ![R, T]⟩ 1 [⟨⟨2, ![R, C]⟩, x0⟩, ⟨⟨2, ![R, C]⟩, x1⟩, ⟨⟨2, ![R, C]⟩, x2⟩, ⟨⟨2, ![R, C]⟩, x3⟩] h (ix2 r k) = x2 (ix2 r c))
    ∧ (k.val = 3 * C + c.val → concatenate ⟨2, ![R, T]⟩ 1 [⟨⟨2, ![R, C]⟩, x0⟩, ⟨⟨2, ![R, C]⟩, x1⟩, ⟨⟨2, ![R, C]⟩, x2⟩, ⟨⟨2, ![R, C]⟩, x3⟩] h (ix2 r k) = x3 (ix2 r c)) := by
  have hoff : ∀ b : Fin (⟨2, ![R, C]⟩ : Shape).rank, b.cast rfl ≠ (1 : Fin (⟨2, ![R, T]⟩ : Shape).rank) →
      ((ix2 r c : (⟨2, ![R, C]⟩ : Shape).Idx) b).val = ((ix2 r k : (⟨2, ![R, T]⟩ : Shape).Idx) (b.cast rfl)).val :=
    fun b hb => match b, hb with
      | ⟨0, _⟩, _ => rfl
      | ⟨1, _⟩, hb => (hb rfl).elim
  refine ⟨fun hk => ?_, fun hk => ?_, fun hk => ?_, fun hk => ?_⟩
  · exact concatenate_apply_piece 1 [⟨⟨2, ![R, C]⟩, x0⟩, ⟨⟨2, ![R, C]⟩, x1⟩, ⟨⟨2, ![R, C]⟩, x2⟩, ⟨⟨2, ![R, C]⟩, x3⟩] h (ix2 r k) 0 (by show 0 < 4; omega) _ x0 rfl rfl 0 rfl (ix2 r c) hoff
      (by show 0 + c.val = k.val; omega)
  · exact concatenate_apply_piece 1 [⟨⟨2, ![R, C]⟩, x0⟩, ⟨⟨2, ![R, C]⟩, x1⟩, ⟨⟨2, ![R, C]⟩, x2⟩, ⟨⟨2, ![R, C]⟩, x3⟩] h (ix2 r k) 1 (by show 1 < 4; omega) _ x1 rfl rfl (C + 0) rfl (ix2 r c) hoff
      (by show C + 0 + c.val = k.val; omega)
  · exact concatenate_apply_piece 1 [⟨⟨2, ![R, C]⟩, x0⟩, ⟨⟨2, ![R, C]⟩, x1⟩, ⟨⟨2, ![R, C]⟩, x2⟩, ⟨⟨2, ![R, C]⟩, x3⟩] h (ix2 r k) 2 (by show 2 < 4; omega) _ x2 rfl rfl (C + (C + 0)) rfl (ix2 r c) hoff
      (by show C + (C + 0) + c.val = k.val; omega)
  · exact concatenate_apply_piece 1 [⟨⟨2, ![R, C]⟩, x0⟩, ⟨⟨2, ![R, C]⟩, x1⟩, ⟨⟨2, ![R, C]⟩, x2⟩, ⟨⟨2, ![R, C]⟩, x3⟩] h (ix2 r k) 3 (by show 3 < 4; omega) _ x3 rfl rfl (C + (C + (C + 0))) rfl (ix2 r c) hoff
      (by show C + (C + (C + 0)) + c.val = k.val; omega)

/-- Four [R, C] matrices stacked: the result at row `j·R + r` and column `c` is piece `j` at `(r, c)`. -/
theorem concat4_rows_apply {R C T : Nat} (x0 x1 x2 x3 : (⟨2, ![R, C]⟩ : Shape).Idx → α)
    (h : Shape.Concatenates [⟨2, ![R, C]⟩, ⟨2, ![R, C]⟩, ⟨2, ![R, C]⟩, ⟨2, ![R, C]⟩] ⟨2, ![T, C]⟩ 0)
    (r : Fin R) (c : Fin C) (k : Fin T) :
    (k.val = 0 * R + r.val → concatenate ⟨2, ![T, C]⟩ 0 [⟨⟨2, ![R, C]⟩, x0⟩, ⟨⟨2, ![R, C]⟩, x1⟩, ⟨⟨2, ![R, C]⟩, x2⟩, ⟨⟨2, ![R, C]⟩, x3⟩] h (ix2 k c) = x0 (ix2 r c))
    ∧ (k.val = 1 * R + r.val → concatenate ⟨2, ![T, C]⟩ 0 [⟨⟨2, ![R, C]⟩, x0⟩, ⟨⟨2, ![R, C]⟩, x1⟩, ⟨⟨2, ![R, C]⟩, x2⟩, ⟨⟨2, ![R, C]⟩, x3⟩] h (ix2 k c) = x1 (ix2 r c))
    ∧ (k.val = 2 * R + r.val → concatenate ⟨2, ![T, C]⟩ 0 [⟨⟨2, ![R, C]⟩, x0⟩, ⟨⟨2, ![R, C]⟩, x1⟩, ⟨⟨2, ![R, C]⟩, x2⟩, ⟨⟨2, ![R, C]⟩, x3⟩] h (ix2 k c) = x2 (ix2 r c))
    ∧ (k.val = 3 * R + r.val → concatenate ⟨2, ![T, C]⟩ 0 [⟨⟨2, ![R, C]⟩, x0⟩, ⟨⟨2, ![R, C]⟩, x1⟩, ⟨⟨2, ![R, C]⟩, x2⟩, ⟨⟨2, ![R, C]⟩, x3⟩] h (ix2 k c) = x3 (ix2 r c)) := by
  have hoff : ∀ b : Fin (⟨2, ![R, C]⟩ : Shape).rank, b.cast rfl ≠ (0 : Fin (⟨2, ![T, C]⟩ : Shape).rank) →
      ((ix2 r c : (⟨2, ![R, C]⟩ : Shape).Idx) b).val = ((ix2 k c : (⟨2, ![T, C]⟩ : Shape).Idx) (b.cast rfl)).val :=
    fun b hb => match b, hb with
      | ⟨0, _⟩, hb => (hb rfl).elim
      | ⟨1, _⟩, _ => rfl
  refine ⟨fun hk => ?_, fun hk => ?_, fun hk => ?_, fun hk => ?_⟩
  · exact concatenate_apply_piece 0 [⟨⟨2, ![R, C]⟩, x0⟩, ⟨⟨2, ![R, C]⟩, x1⟩, ⟨⟨2, ![R, C]⟩, x2⟩, ⟨⟨2, ![R, C]⟩, x3⟩] h (ix2 k c) 0 (by show 0 < 4; omega) _ x0 rfl rfl 0 rfl (ix2 r c) hoff
      (by show 0 + r.val = k.val; omega)
  · exact concatenate_apply_piece 0 [⟨⟨2, ![R, C]⟩, x0⟩, ⟨⟨2, ![R, C]⟩, x1⟩, ⟨⟨2, ![R, C]⟩, x2⟩, ⟨⟨2, ![R, C]⟩, x3⟩] h (ix2 k c) 1 (by show 1 < 4; omega) _ x1 rfl rfl (R + 0) rfl (ix2 r c) hoff
      (by show R + 0 + r.val = k.val; omega)
  · exact concatenate_apply_piece 0 [⟨⟨2, ![R, C]⟩, x0⟩, ⟨⟨2, ![R, C]⟩, x1⟩, ⟨⟨2, ![R, C]⟩, x2⟩, ⟨⟨2, ![R, C]⟩, x3⟩] h (ix2 k c) 2 (by show 2 < 4; omega) _ x2 rfl rfl (R + (R + 0)) rfl (ix2 r c) hoff
      (by show R + (R + 0) + r.val = k.val; omega)
  · exact concatenate_apply_piece 0 [⟨⟨2, ![R, C]⟩, x0⟩, ⟨⟨2, ![R, C]⟩, x1⟩, ⟨⟨2, ![R, C]⟩, x2⟩, ⟨⟨2, ![R, C]⟩, x3⟩] h (ix2 k c) 3 (by show 3 < 4; omega) _ x3 rfl rfl (R + (R + (R + 0))) rfl (ix2 r c) hoff
      (by show R + (R + (R + 0)) + r.val = k.val; omega)

end Cert.LibConcat4
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.LibMatAssoc.lean ====
/-
  Reassociating a product of three matrices over the extended reals.

  Over the extended reals multiplication does not distribute over addition at the infinities, so the two
  groupings `(A · X) · W` and `A · (X · W)` of a triple product need not agree entry by entry.  When every entry
  is a real number both groupings are the same real: the sums and products are computed in `ℝ`, where the
  identity is distributivity and an exchange of the two finite sums.
-/
import Mathlib

namespace MatAssoc

open Finset

/-- The coercion `ℝ → EReal` of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `∑ₖ (∑ᵢ aᵢ xᵢₖ) wₖ = ∑ᵢ aᵢ ∑ₖ xᵢₖ wₖ`. -/
theorem real_assoc {ι κ : Type*} [Fintype ι] [Fintype κ] (a : ι → ℝ) (x : ι → κ → ℝ) (w : κ → ℝ) :
    ∑ k, (∑ i, a i * x i k) * w k = ∑ i, a i * ∑ k, x i k * w k := by
  simp only [Finset.sum_mul, Finset.mul_sum]
  rw [Finset.sum_comm]
  exact Finset.sum_congr rfl fun i _ => Finset.sum_congr rfl fun k _ => mul_assoc _ _ _

/-- One row of `(A · X) · W` against the same row of `A · (X · W)` over the extended reals, every entry a real:
    `∑ₖ (∑ᵢ aᵢ xᵢₖ) wₖ = ∑ᵢ aᵢ ∑ₖ xᵢₖ wₖ`. -/
theorem ereal_assoc {ι κ : Type*} [Fintype ι] [Fintype κ] (a : ι → EReal) (x : ι → κ → EReal) (w : κ → EReal)
    (ha : ∀ i, a i ≠ ⊤ ∧ a i ≠ ⊥) (hx : ∀ i k, x i k ≠ ⊤ ∧ x i k ≠ ⊥) (hw : ∀ k, w k ≠ ⊤ ∧ w k ≠ ⊥) :
    ∑ k, (∑ i, a i * x i k) * w k = ∑ i, a i * ∑ k, x i k * w k := by
  lift a to ι → ℝ using ha
  lift w to κ → ℝ using hw
  obtain ⟨x', hx'⟩ : ∃ x' : ι → κ → ℝ, ∀ i k, x i k = (x' i k : EReal) :=
    ⟨fun i k => (x i k).toReal, fun i k => (EReal.coe_toReal (hx i k).1 (hx i k).2).symm⟩
  simp only [hx', ← EReal.coe_mul, ← coe_sum]
  exact congrArg _ (real_assoc a x' w)

end MatAssoc
-- ==== Proof.Combine.lean ====
/-
  The law that joins the two programs. With real entries everywhere, the one product of the 50000 × 256 feature
  matrix `[x | T₁ | T₂ | T₃]` with the 256 × 64 stack of the blocks `0 + tf₀`, `(0 + tb₀) + tb₁`, `(0 + tf₁) + tb₂`,
  `0 + tf₂` is, entry by entry, the reference's running sum
  `x·tf₀ + T₁·tb₀ + T₂·tf₁ + T₁·tb₁ + T₃·tf₂ + T₂·tb₂`: the sum over the 256 contracted columns splits into the four
  blocks of 64, each factor is read off its piece of the concatenation, and the product distributes over the sums of
  the blocks' coefficients — which is where the entries have to be real numbers: on the extended reals
  `t·(a + b) = t·a + t·b` fails at infinities.
-/
import proofs.«123144_j32865089749452_1_alg».proof.Proof.KSpec
import proofs.«123144_j32865089749452_1_alg».proof.Proof.PropReal
import proofs.«123144_j32865089749452_1_alg».proof.Proof.LibConcat4
import proofs.«123144_j32865089749452_1_alg».proof.Proof.LibHostDotIx
import proofs.«123144_j32865089749452_1_alg».proof.Proof.LibSumDigits
import proofs.«123144_j32865089749452_1_alg».proof.Proof.LibMatAssoc
import Idealize.ShloMosaic.PureOps.Ideal.Laws
import Idealize.ShloMosaic.Lib.ValueIdx

noncomputable section

namespace Cert.Diffusion

open Idealize.ShloMosaic Idealize.ShloMosaic.ValueIdx Cert.KernelIdeal.HostTerm

/-! ## Over the reals -/

/-- The regrouping, over the reals. -/
theorem combine_real (t0 t1 t2 t3 f0 f1 f2 b0 b1 b2 : Fin 64 → ℝ) :
    (∑ c, t0 c * (0 + f0 c)) + (∑ c, t1 c * ((0 + b0 c) + b1 c)) + (∑ c, t2 c * ((0 + f1 c) + b2 c))
        + (∑ c, t3 c * (0 + f2 c))
      = ((((∑ c, t0 c * f0 c + ∑ c, t1 c * b0 c) + ∑ c, t2 c * f1 c) + ∑ c, t1 c * b1 c) + ∑ c, t3 c * f2 c)
        + ∑ c, t2 c * b2 c := by
  simp only [zero_add, mul_add, Finset.sum_add_distrib]
  ring

/-- The same on extended reals all of which are real numbers. -/
theorem combine_ereal (T0 T1 T2 T3 F0 F1 F2 B0 B1 B2 : Fin 64 → EReal)
    (hT0 : IsReal T0) (hT1 : IsReal T1) (hT2 : IsReal T2) (hT3 : IsReal T3) (hF0 : IsReal F0) (hF1 : IsReal F1)
    (hF2 : IsReal F2) (hB0 : IsReal B0) (hB1 : IsReal B1) (hB2 : IsReal B2) :
    (∑ c, T0 c * (0 + F0 c)) + (∑ c, T1 c * ((0 + B0 c) + B1 c)) + (∑ c, T2 c * ((0 + F1 c) + B2 c))
        + (∑ c, T3 c * (0 + F2 c))
      = ((((∑ c, T0 c * F0 c + ∑ c, T1 c * B0 c) + ∑ c, T2 c * F1 c) + ∑ c, T1 c * B1 c) + ∑ c, T3 c * F2 c)
        + ∑ c, T2 c * B2 c := by
  choose t0 ht0 using hT0
  choose t1 ht1 using hT1
  choose t2 ht2 using hT2
  choose t3 ht3 using hT3
  choose f0 hf0 using hF0
  choose f1 hf1 using hF1
  choose f2 hf2 using hF2
  choose b0 hb0 using hB0
  choose b1 hb1 using hB1
  choose b2 hb2 using hB2
  simp only [ht0, ht1, ht2, ht3, hf0, hf1, hf2, hb0, hb1, hb2, zero_add]
  simp only [← EReal.coe_add, ← EReal.coe_mul, ← MatAssoc.coe_sum]
  refine congrArg (fun r : ℝ => (r : EReal)) ?_
  have := combine_real t0 t1 t2 t3 f0 f1 f2 b0 b1 b2
  simpa only [zero_add] using this

/-! ## The factors read off the concatenations -/

variable (x : (⟨Cert.ReferenceIdeal.S50000x64, .f32⟩ : BufTy).Contents (Elt Ideal))
  (ei : (⟨Cert.ReferenceIdeal.S2x800000, .i32⟩ : BufTy).Contents (Elt Ideal))
  (ew : (⟨Cert.ReferenceIdeal.S800000, .f32⟩ : BufTy).Contents (Elt Ideal))
  (tf tb : (⟨Cert.ReferenceIdeal.S3x64x64, .f32⟩ : BufTy).Contents (Elt Ideal))

/-- Column `j·64 + c` of the left operand is column `c` of the `j`-th feature matrix. -/
theorem xflat_apply (a : Fin 50000) (c : Fin 64) (k : Fin 256) :
    (k.val = 0 * 64 + c.val → xflat (F := Ideal) x ei ew (ix2 a k) = x (ix2 a c))
    ∧ (k.val = 1 * 64 + c.val → xflat (F := Ideal) x ei ew (ix2 a k) = prop ei ew x (ix2 a c))
    ∧ (k.val = 2 * 64 + c.val → xflat (F := Ideal) x ei ew (ix2 a k) = prop ei ew (prop ei ew x) (ix2 a c))
    ∧ (k.val = 3 * 64 + c.val →
        xflat (F := Ideal) x ei ew (ix2 a k) = prop ei ew (prop ei ew (prop ei ew x)) (ix2 a c)) :=
  Cert.LibConcat4.concat4_cols_apply (R := 50000) (C := 64) (T := 256) x (prop ei ew x) (prop ei ew (prop ei ew x))
    (prop ei ew (prop ei ew (prop ei ew x)))
    Cert.KernelIdeal.Gen.concatenates_S50000x64_S50000x64_S50000x64_S50000x64_S50000x256_d1 a c k

/-- Row `j·64 + c` of the right operand is row `c` of the `j`-th coefficient block. -/
theorem wflat_apply (c : Fin 64) (b : Fin 64) (k : Fin 256) :
    (k.val = 0 * 64 + c.val → wflat (F := Ideal) tf tb (ix2 k b) = (0 : EReal) + slab0 tf (ix2 c b))
    ∧ (k.val = 1 * 64 + c.val →
        wflat (F := Ideal) tf tb (ix2 k b) = ((0 : EReal) + slab0 tb (ix2 c b)) + slab1 tb (ix2 c b))
    ∧ (k.val = 2 * 64 + c.val →
        wflat (F := Ideal) tf tb (ix2 k b) = ((0 : EReal) + slab1 tf (ix2 c b)) + slab2 tb (ix2 c b))
    ∧ (k.val = 3 * 64 + c.val → wflat (F := Ideal) tf tb (ix2 k b) = (0 : EReal) + slab2 tf (ix2 c b)) := by
  have hz : ∀ i, zero64 (F := Ideal) i = (0 : EReal) := fun i => Ideal.ofBits_zero_f32
  have h := Cert.LibConcat4.concat4_rows_apply (R := 64) (C := 64) (T := 256)
    (addf (zero64 (F := Ideal)) (slab0 tf)) (addf (addf (zero64 (F := Ideal)) (slab0 tb)) (slab1 tb))
    (addf (addf (zero64 (F := Ideal)) (slab1 tf)) (slab2 tb)) (addf (zero64 (F := Ideal)) (slab2 tf))
    Cert.KernelIdeal.Gen.concatenates_S64x64_S64x64_S64x64_S64x64_S256x64_d0 c b k
  refine ⟨fun hk => (h.1 hk).trans ?_, fun hk => (h.2.1 hk).trans ?_, fun hk => (h.2.2.1 hk).trans ?_,
    fun hk => (h.2.2.2 hk).trans ?_⟩
  · show zero64 (F := Ideal) (ix2 c b) + slab0 tf (ix2 c b) = _
    rw [hz]
  · show (zero64 (F := Ideal) (ix2 c b) + slab0 tb (ix2 c b)) + slab1 tb (ix2 c b) = _
    rw [hz]
  · show (zero64 (F := Ideal) (ix2 c b) + slab1 tf (ix2 c b)) + slab2 tb (ix2 c b) = _
    rw [hz]
  · show zero64 (F := Ideal) (ix2 c b) + slab2 tf (ix2 c b) = _
    rw [hz]

/-- A slab of a stack of real coefficients is real. -/
theorem slab_real (h : IsReal tf) : IsReal (slab0 (F := Ideal) tf) ∧ IsReal (slab1 (F := Ideal) tf) ∧ IsReal (slab2 (F := Ideal) tf) :=
  ⟨fun i => h _, fun i => h _, fun i => h _⟩

/-- The host's product of a 50000 × 64 by a 64 × 64 matrix, at an entry. -/
theorem dot_apply (A : FVec Ideal Cert.ReferenceIdeal.S50000x64 .f32) (B : FVec Ideal Cert.ReferenceIdeal.S64x64 .f32)
    (a : Fin 50000) (b : Fin 64) :
    Host.dotGeneral (F := Ideal) Cert.ReferenceIdeal.dot_S50000x64_S64x64_S50000x64_1_0_0_1_n_n none A B (ix2 a b)
      = ∑ c : Fin 64, A (ix2 a c) * B (ix2 c b) :=
  Cert.LibHostDotIx.dotGeneral_apply (M := 50000) (K := 64) (N := 64) _ none A B a b

/-! ## The two sides are one function -/

/-- Entry `(a, b)` of the kernel's one product is entry `(a, b)` of the reference's running sum. -/
theorem kernel_eq_ref (hx : IsReal x) (hw : IsReal ew) (htf : IsReal tf) (htb : IsReal tb) (a : Fin 50000) (b : Fin 64) :
    ∑ k : Fin 256, xflat (F := Ideal) x ei ew (ix2 a k) * wflat (F := Ideal) tf tb (ix2 k b)
      = refOut (F := Ideal) x ei ew tf tb (ix2 a b) := by
  have h1 : IsReal (prop (F := Ideal) ei ew x) := prop_real ei ew x hw hx
  have h2 : IsReal (prop (F := Ideal) ei ew (prop ei ew x)) := prop_real ei ew _ hw h1
  have h3 : IsReal (prop (F := Ideal) ei ew (prop ei ew (prop ei ew x))) := prop_real ei ew _ hw h2
  obtain ⟨hf0, hf1, hf2⟩ := slab_real tf htf
  obtain ⟨hb0, hb1, hb2⟩ := slab_real tb htb
  have hL : ∑ k : Fin 256, xflat (F := Ideal) x ei ew (ix2 a k) * wflat (F := Ideal) tf tb (ix2 k b)
      = (∑ c : Fin 64, x (ix2 a c) * ((0 : EReal) + slab0 tf (ix2 c b)))
        + (∑ c : Fin 64, prop ei ew x (ix2 a c) * (((0 : EReal) + slab0 tb (ix2 c b)) + slab1 tb (ix2 c b)))
        + (∑ c : Fin 64, prop ei ew (prop ei ew x) (ix2 a c) * (((0 : EReal) + slab1 tf (ix2 c b)) + slab2 tb (ix2 c b)))
        + (∑ c : Fin 64, prop ei ew (prop ei ew (prop ei ew x)) (ix2 a c) * ((0 : EReal) + slab2 tf (ix2 c b))) := by
    rw [Cert.SumDigits.sum_fin_mul (m := 4) (n := 64) (N := 256) rfl, Fin.sum_univ_four]
    refine congrArg₂ (· + ·) (congrArg₂ (· + ·) (congrArg₂ (· + ·) ?_ ?_) ?_) ?_
    · exact Finset.sum_congr rfl fun c _ =>
        congrArg₂ (· * ·) ((xflat_apply x ei ew a c _).1 rfl) ((wflat_apply tf tb c b _).1 rfl)
    · exact Finset.sum_congr rfl fun c _ =>
        congrArg₂ (· * ·) ((xflat_apply x ei ew a c _).2.1 rfl) ((wflat_apply tf tb c b _).2.1 rfl)
    · exact Finset.sum_congr rfl fun c _ =>
        congrArg₂ (· * ·) ((xflat_apply x ei ew a c _).2.2.1 rfl) ((wflat_apply tf tb c b _).2.2.1 rfl)
    · exact Finset.sum_congr rfl fun c _ =>
        congrArg₂ (· * ·) ((xflat_apply x ei ew a c _).2.2.2 rfl) ((wflat_apply tf tb c b _).2.2.2 rfl)
  have hR : refOut (F := Ideal) x ei ew tf tb (ix2 a b)
      = ((((∑ c : Fin 64, x (ix2 a c) * slab0 tf (ix2 c b) + ∑ c : Fin 64, prop ei ew x (ix2 a c) * slab0 tb (ix2 c b))
          + ∑ c : Fin 64, prop ei ew (prop ei ew x) (ix2 a c) * slab1 tf (ix2 c b))
          + ∑ c : Fin 64, prop ei ew x (ix2 a c) * slab1 tb (ix2 c b))
          + ∑ c : Fin 64, prop ei ew (prop ei ew (prop ei ew x)) (ix2 a c) * slab2 tf (ix2 c b))
          + ∑ c : Fin 64, prop ei ew (prop ei ew x) (ix2 a c) * slab2 tb (ix2 c b) := by
    have e : ∀ (A : FVec Ideal Cert.ReferenceIdeal.S50000x64 .f32) (B : FVec Ideal Cert.ReferenceIdeal.S64x64 .f32),
        Host.dotGeneral (F := Ideal) Cert.ReferenceIdeal.dot_S50000x64_S64x64_S50000x64_1_0_0_1_n_n none A B (ix2 a b)
          = ∑ c : Fin 64, A (ix2 a c) * B (ix2 c b) := fun A B => dot_apply A B a b
    unfold refOut
    show ((((_ + _) + _) + _) + _) + _ = _
    rw [e, e, e, e, e, e]
  rw [hL, hR]
  exact combine_ereal (fun c => x (ix2 a c)) (fun c => prop ei ew x (ix2 a c))
    (fun c => prop ei ew (prop ei ew x) (ix2 a c)) (fun c => prop ei ew (prop ei ew (prop ei ew x)) (ix2 a c))
    (fun c => slab0 tf (ix2 c b)) (fun c => slab1 tf (ix2 c b)) (fun c => slab2 tf (ix2 c b))
    (fun c => slab0 tb (ix2 c b)) (fun c => slab1 tb (ix2 c b)) (fun c => slab2 tb (ix2 c b))
    (fun c => hx _) (fun c => h1 _) (fun c => h2 _) (fun c => h3 _) (fun c => hf0 _) (fun c => hf1 _) (fun c => hf2 _)
    (fun c => hb0 _) (fun c => hb1 _) (fun c => hb2 _)

end Cert.Diffusion

end
-- ==== Proof.PreReal.lean ====
/-
  The precondition read back: when the printed predicate `jnp.all(|a| < +∞)`, taken over each of the four float
  arguments and joined by `and`, holds, every element of every float argument is a real number. An extended real
  whose absolute value `max x (-x)` is strictly below `⊤` is neither `⊤` nor `⊥` (both have absolute value `⊤`),
  and a reduction by `and` over all axes that yields 1 had a 1 at every element.
-/
import proofs.«123144_j32865089749452_1_alg».proof.Proof.Gen.Pre_finite_inputs
import proofs.«123144_j32865089749452_1_alg».proof.Proof.Real
import Idealize.ShloMosaic.Lib.ReduceAll
import Idealize.ShloMosaic.Lib.IdealHost
import Idealize.ShloMosaic.PureOps.Ideal.Laws

namespace Cert.Diffusion

open Idealize.ShloMosaic

/-- The shape of rank 0 has exactly one index. -/
instance subsingleton_scalarIdx : Subsingleton Cert.Pre_finite_inputs.S_.Idx :=
  ⟨fun _ _ => funext fun d => d.elim0⟩

/-- The f32 pattern `0x7F800000` is `+∞`. -/
theorem ofBits_posInf_f32 : Ideal.ofBits .f32 0x7F800000#32 = (⊤ : EReal) := by
  simp [Ideal.ofBits, Ideal.ieee]

/-- An extended real whose absolute value is strictly below `+∞` is a real number: `|⊤| = |⊥| = ⊤`. -/
theorem real_of_abs_lt_top (x : EReal)
    (h : Ideal.cmp .olt (max x (-x)) (⊤ : EReal) = 1#1) : ∃ r : ℝ, x = (r : EReal) := by
  induction x using EReal.rec with
  | bot => exfalso; simp [Ideal.cmp] at h
  | coe r => exact ⟨r, rfl⟩
  | top => exfalso; simp [Ideal.cmp] at h

/-- One `jnp.all(|a| < +∞)` read back: every element of `a` is real. -/
theorem isReal_of_all_abs_lt {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf a)
          (broadcastInDim s ![] hb (constant Cert.Pre_finite_inputs.S_ .f32 0x7F800000#32)))
        (constantI Cert.Pre_finite_inputs.S_ 1 1#1) hr hu ValueIdx.ix0 = 1#1) : IsReal a := by
  intro i
  have hi := Host.reduce_andi_all _ _ hr hu _ e i
  apply real_of_abs_lt_top
  rw [← ofBits_posInf_f32]
  simpa only [cmpf, Host.absf, ValueIdx.broadcastInDim_scalar_apply, constant, Ideal.hostAbsf_def,
    Ideal.absf_def, Ideal.cmpf_def, Ideal.ofBits_def] using hi

variable [Cert.Pre_finite_inputs.Facts]

/-- The printed precondition, holding, makes every float argument a family of real numbers. -/
theorem pre_real (a0 : FVec Ideal Cert.Pre_finite_inputs.S50000x64 .f32) (a1 : IVec Cert.Pre_finite_inputs.S2x800000 32)
    (a2 : FVec Ideal Cert.Pre_finite_inputs.S800000 .f32) (a3 a4 : FVec Ideal Cert.Pre_finite_inputs.S3x64x64 .f32)
    (h : Cert.Pre_finite_inputs.fn (F := Ideal) a0 a1 a2 a3 a4 = fun _ => 1#1) :
    IsReal a0 ∧ IsReal a2 ∧ IsReal a3 ∧ IsReal a4 := by
  have h0 := congrFun h ValueIdx.ix0
  dsimp only [Cert.Pre_finite_inputs.fn, Cert.Pre_finite_inputs.fn_part1, andi] at h0
  obtain ⟨h012, h4⟩ := IntOp.andi_eq_one.1 h0
  obtain ⟨h01, h3⟩ := IntOp.andi_eq_one.1 h012
  obtain ⟨h0', h2⟩ := IntOp.andi_eq_one.1 h01
  exact ⟨isReal_of_all_abs_lt a0 _ _ _ h0', isReal_of_all_abs_lt a2 _ _ _ h2,
    isReal_of_all_abs_lt a3 _ _ _ h3, isReal_of_all_abs_lt a4 _ _ _ h4⟩

end Cert.Diffusion
-- ==== Proof.KernelRun.lean ====
/-
  The kernel program's run with its result named. Under the precondition every float argument is a family of real
  numbers; the region's output array is, block by block, the product of the two arrays the host operations hand it,
  these are the specification's feature and coefficient operands, and their product is, entry by entry, the
  reference's running sum of six products.
-/
import proofs.«123144_j32865089749452_1_alg».proof.Defs
import proofs.«123144_j32865089749452_1_alg».proof.Proof.KIFrame
import proofs.«123144_j32865089749452_1_alg».proof.Proof.KIValue
import proofs.«123144_j32865089749452_1_alg».proof.Proof.HostTerm
import proofs.«123144_j32865089749452_1_alg».proof.Proof.Combine
import proofs.«123144_j32865089749452_1_alg».proof.Proof.PreReal

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand Cert.Diffusion

variable (m : (ℓ : Loc nD τ sig) → Buf (Elt Ideal) ℓ) (ρ : Dev nD → PrngReg)

/-- The output array after the run is the reference's function of the argument arrays, when these are real. -/
theorem kernel_value (c : Dev nD)
    (hx : IsReal (m ((c.tc : Thread nD τ).loc main_arg0))) (hw : IsReal (m ((c.tc : Thread nD τ).loc main_arg2)))
    (htf : IsReal (m ((c.tc : Thread nD τ).loc main_arg3))) (htb : IsReal (m ((c.tc : Thread nD τ).loc main_arg4))) :
    (dats (F := Ideal) m 0 c).arrAt 2 cfg0.N
      = refOut (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  funext i
  obtain ⟨a, b, rfl⟩ : ∃ (a : Fin 50000) (b : Fin 64), i = ix2 a b := ⟨i 0, i 1, eq_ix2 i⟩
  refine (final m c _ _ (Cert.KernelIdeal.HostTerm.V92_eq m c) (Cert.KernelIdeal.HostTerm.V94_eq m c) a b).trans ?_
  exact kernel_eq_ref _ _ _ _ _ hx hw htf htb a b

/-- Every weakly fair execution of the kernel program from a memory satisfying the precondition terminates with the
    result array at the reference's function of the argument arrays and the arguments unchanged. -/
theorem kernel_run [hP : Cert.Pre_finite_inputs.Facts] (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v95)
          = refOut (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ?_) (run_main m ρ)
  obtain ⟨hx, hw, htf, htb⟩ := pre_real _ _ _ _ _ (hpre c)
  refine ⟨((h c).1 2).trans (kernel_value m c hx hw htf htb), ?_, ?_, ?_, ?_, ?_⟩
  · exact ((h c).2 main_arg0 (Pipeline.mem_restRefs_of main_arg0 (by decide) (by decide))).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)

end Cert.KernelIdeal.HandValue

end
-- ==== Proof.RefValue.lean ====
/-
  The reference program's result is the running sum of six matrix products of the specification, as one pure term of
  the argument arrays: the run's composed term is that term, the three propagation steps and the shared edge
  normalisation folded into the specification's named functions.
-/
import proofs.«123144_j32865089749452_1_alg».proof.Proof.Gen.ReferenceIdeal.Run
import proofs.«123144_j32865089749452_1_alg».proof.Proof.Spec

noncomputable section

namespace Cert.Diffusion

open Idealize.ShloMosaic Idealize.ShloMosaic.TcCoe Idealize.SL.Sem Cert.ReferenceIdeal Cert.ReferenceIdeal.Gen

variable {F : FTy → Type} [FloatOps F]

set_option maxRecDepth 8192 in
set_option maxHeartbeats 2000000 in
/-- The reference run's term is `refOut` of the argument arrays. -/
theorem res_eq (m : (ℓ : Loc nD τ sig) → Buf (Elt F) ℓ) (c : Dev nD) :
    Cert.ReferenceIdeal.Value.res_main_v143 m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.ReferenceIdeal.Value.res_main_v143 refOut prop norm degInv deg wrapIx rowIx colIx slab0 slab1 slab2
  rfl

end Cert.Diffusion

end
-- ==== Proof.lean ====
/-
  The certificate of the diffusion convolution. The kernel program propagates the node features three times through
  the graph on the host (`T₁ = prop x`, `T₂ = prop T₁`, `T₃ = prop T₂`: gather the source rows, scale by the
  normalised edge weight, add up by target node), lays `[x | T₁ | T₂ | T₃]` side by side, stacks the four coefficient
  blocks `0 + tf₀`, `(0 + tb₀) + tb₁`, `(0 + tf₁) + tb₂`, `0 + tf₂`, and multiplies the two in one matrix-product
  region over five blocks of 10000 rows; the reference adds the six products `x·tf₀ + T₁·tb₀ + T₂·tf₁ + T₁·tb₁ +
  T₃·tf₂ + T₂·tb₂`. Read at the exact extended reals a narrowing of the float format is the identity and both
  programs apply the same propagation step, so the two results differ only by the grouping of the sum over the 256
  contracted columns and by the distribution of a product over a sum of two coefficients; the latter holds because,
  under the precondition, every float argument is real and a propagation step keeps real entries real.
  The three frames: each kernel program's by running its host operations and then the region point by point (the
  body loads its two blocks, multiplies them and stores the product over the whole output block), the reference's by
  its run with the result dropped. The idealized kernel is the kernel's own text read at the exact instance: the
  ideal pass rewrote nothing.
-/
import proofs.«123144_j32865089749452_1_alg».proof.Defs
import proofs.«123144_j32865089749452_1_alg».proof.Proof.Gen.Kernel
import proofs.«123144_j32865089749452_1_alg».proof.Proof.Gen.KernelIdeal
import proofs.«123144_j32865089749452_1_alg».proof.Proof.Gen.ReferenceIdeal
import proofs.«123144_j32865089749452_1_alg».proof.Proof.Gen.Pre_finite_inputs
import proofs.«123144_j32865089749452_1_alg».proof.Proof.KFrame
import proofs.«123144_j32865089749452_1_alg».proof.Proof.KIFrame
import proofs.«123144_j32865089749452_1_alg».proof.Proof.KernelRun
import proofs.«123144_j32865089749452_1_alg».proof.Proof.RefValue
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The ideal pass rewrote no operation. -/
theorem preserves : Cert.preserves_Kernel_KernelIdeal := trivial

/-- From memories agreeing on the arguments both idealized programs end with the result array at the reference's
    running sum of six products of the argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.HandValue.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.Diffusion.res_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
